-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x64 .f32) (main_arg3 : FVec F S64 .f32) (main_arg4 : FVec F S64x8 .f32) (main_arg5 : FVec F S8 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x500 : Shape := ⟨2, ![4000, 500]⟩
abbrev S4000x64 : Shape := ⟨2, ![4000, 64]⟩
abbrev S1700000x64 : Shape := ⟨2, ![1700000, 64]⟩
abbrev S1x64 : Shape := ⟨2, ![1, 64]⟩
abbrev S100000x8 : Shape := ⟨2, ![100000, 8]⟩
abbrev S10000x64 : Shape := ⟨2, ![10000, 64]⟩
abbrev S10000x8 : Shape := ⟨2, ![10000, 8]⟩
abbrev S1700000x8 : Shape := ⟨2, ![1700000, 8]⟩
abbrev S1x8 : Shape := ⟨2, ![1, 8]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x8, .f32⟩
  | .hbm, ⟨79, _⟩ => ⟨S1700000x1, .f32⟩
  | .hbm, ⟨80, _⟩ => ⟨S1700000x8, .f32⟩
  | .hbm, ⟨81, _⟩ => ⟨S1700000x8, .f32⟩
  | .hbm, ⟨82, _⟩ => ⟨S_, .f32⟩
  | .hbm, ⟨83, _⟩ => ⟨S100000x8, .f32⟩
  | .hbm, ⟨84, _⟩ => ⟨S1700000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x8, .f32⟩
  | .hbm, ⟨103, _⟩ => ⟨S100000x8, .f32⟩
  | .local _ .vmem, ⟨0, _⟩ => ⟨S4000x500, .f32⟩
  | .local _ .vmem, ⟨1, _⟩ => ⟨S4000x500, .f32⟩
  | .local _ .vmem, ⟨2, _⟩ => ⟨S500x64, .f32⟩
  | .local _ .vmem, ⟨3, _⟩ => ⟨S4000x64, .f32⟩
  | .local _ .vmem, ⟨4, _⟩ => ⟨S4000x64, .f32⟩
  | .local _ .vmem, ⟨5, _⟩ => ⟨S10000x64, .f32⟩
  | .local _ .vmem, ⟨6, _⟩ => ⟨S10000x64, .f32⟩
  | .local _ .vmem, ⟨7, _⟩ => ⟨S64x8, .f32⟩
  | .local _ .vmem, ⟨8, _⟩ => ⟨S10000x8, .f32⟩
  | .local _ .vmem, ⟨9, _⟩ => ⟨S10000x8, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x8_S64x8_0_0 : ∀ a, (![0, 0] : Fin 2 → Nat) a + S64x8.size a ≤ S64x8.size a
  h_S64x8 : 0 < S64x8.numel
  inb_S10000x8_S10000x8_0_0 : ∀ a, (![0, 0] : Fin 2 → Nat) a + S10000x8.size a ≤ S10000x8.size a
  h_S10000x8 : 0 < S10000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x500_S500x64_S4000x64_1_0_0_1_n_n_wf : DotDims.WF S4000x500 S500x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x8_S10000x8_1_0_0_1_n_n_wf : DotDims.WF S10000x64 S64x8 S10000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S100000x8.size a
  hwx1_2 : ∀ i : grid1.Coords, EltTy.bits .f32 = 32 ∨ (Rect.block (s := S100000x8) S10000x8.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x500_S500x64_S4000x64_1_0_0_1_n_n : DotDims S4000x500 S500x64 S4000x64 where
  lhsContracting := [1]
  rhsContracting := [0]
  lhsNonContracting := [0]
  rhsNonContracting := [1]
  lhsBatch := []
  rhsBatch := []
  wf := dot_S4000x500_S500x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x8 : Shape := ⟨2, ![100000, 8]⟩
abbrev S1700000x8 : Shape := ⟨2, ![1700000, 8]⟩
abbrev S1x8 : Shape := ⟨2, ![1, 8]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x8, .f32⟩
  | .hbm, ⟨79, _⟩ => ⟨S1700000x1, .f32⟩
  | .hbm, ⟨80, _⟩ => ⟨S1700000x8, .f32⟩
  | .hbm, ⟨81, _⟩ => ⟨S1700000x8, .f32⟩
  | .hbm, ⟨82, _⟩ => ⟨S_, .f32⟩
  | .hbm, ⟨83, _⟩ => ⟨S100000x8, .f32⟩
  | .hbm, ⟨84, _⟩ => ⟨S1700000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x8, .f32⟩
  | .hbm, ⟨103, _⟩ => ⟨S100000x8, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x64_S100000x64_1_0_0_1_n_n_wf : DotDims.WF S100000x500 S500x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.Network.lean ====
/-
  A two-layer graph convolution followed by a row-wise log-softmax, written once as a function of its inputs.

  The graph has 100000 nodes and 1600000 directed edges, given as a [2, 1600000] integer array (row 0 the
  sources, row 1 the targets); a self loop is appended for every node, so there are 1700000 edges in all. The
  in-degree `deg` of a node counts the edges that end at it (a scatter-add of ones), `dinv = deg^(-1/2)` where
  `deg > 0` and `0` elsewhere, and edge `j` carries the weight `dinv[src j] · dinv[dst j]` (an index is
  read the way the host reads it: a negative one wraps around once by the node count). One aggregation takes an
  already transformed feature matrix `hw` (one row per node), gathers row `src j` for every edge, scales it
  by the edge's weight, scatter-adds it into row `dst j`, and adds the bias. The network is
  `logSoftmax (aggregate ((relu (aggregate (x · W1) + b1)) · W2) + b2)`.

  Everything here is a composition of the host's array operations, for any float instance; the two matrix
  products are parameters of `network`, so that the same text serves a program that computes them with a host
  `dot_general` and one that computes them block by block on the matrix unit.
-/
import proofs.«166765_j35287451304491_1_alg».proof.Proof.Gen.ReferenceIdeal

noncomputable section

namespace Cert.Gcn

open Cert.ReferenceIdeal Cert.ReferenceIdeal.Gen Idealize.ShloMosaic

variable {F : FTy → Type} [FloatOps F]

/-- The sources of the 1700000 edges: row 0 of the edge list, then one self loop per node. -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the 1700000 edges: row 1 of the edge list, then one self loop per node. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as a gather reads it: a negative one wraps around once by the node count; as an index column. -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node: a one scatter-added at each edge's target. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg^(-1/2)` where the degree is positive, `0` elsewhere. -/
def invSqrtDegree (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The weight of every edge: `dinv[src] · dinv[dst]`. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDegree d) (wrapped s)) (Host.gather gather_S100000_S1700000x1_S1700000_n_0_n_n_0_1_1 (invSqrtDegree d) (wrapped d))

/-- One aggregation over 64 features: gather the source rows, scale by the edge weights, scatter-add into the
    target rows, add the bias. -/
def aggregate64 (hw : (⟨S100000x64, .f32⟩ : BufTy).Contents (Elt F)) (s d : (⟨S1700000, .i32⟩ : BufTy).Contents (Elt F))
    (w : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 hw (wrapped s)) (broadcastInDim S1700000x64 ![0, 1] bcast_S1700000x1_S1700000x64_0_1 (broadcastInDim S1700000x1 ![0] bcast_S1700000_S1700000x1_0 w)))) (broadcastInDim S100000x64 ![0, 1] bcast_S1x64_S100000x64_0_1 (broadcastInDim S1x64 ![1] bcast_S64_S1x64_1 b))

/-- `max(x, 0)`, entry by entry. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The same aggregation over 8 features. -/
def aggregate8 (hw : (⟨S100000x8, .f32⟩ : BufTy).Contents (Elt F)) (s d : (⟨S1700000, .i32⟩ : BufTy).Contents (Elt F))
    (w : (⟨S1700000, .f32⟩ : BufTy).Contents (Elt F)) (b : (⟨S8, .f32⟩ : BufTy).Contents (Elt F)) : (⟨S100000x8, .f32⟩ : BufTy).Contents (Elt F) :=
  addf (Host.scatterAdd scatter_S100000x8_S1700000x1_S1700000x8_1_0_0_1 (broadcastInDim S100000x8 ![] bcast_S_S100000x8 (constant S_ .f32 0x00000000#32)) (broadcastInDim S1700000x1 ![0] bcast_S1700000_S1700000x1_0 d) (mulf (Host.gather gather_S100000x8_S1700000x1_S1700000x8_1_0_n_n_0_1_18 hw (wrapped s)) (broadcastInDim S1700000x8 ![0, 1] bcast_S1700000x1_S1700000x8_0_1 (broadcastInDim S1700000x1 ![0] bcast_S1700000_S1700000x1_0 w)))) (broadcastInDim S100000x8 ![0, 1] bcast_S1x8_S100000x8_0_1 (broadcastInDim S1x8 ![1] bcast_S8_S1x8_1 b))

/-- A row with its maximum subtracted (the maximum taken from `-inf`). -/
def centred (x : (⟨S100000x8, .f32⟩ : BufTy).Contents (Elt F)) : (⟨S100000x8, .f32⟩ : BufTy).Contents (Elt F) :=
  subf x (broadcastInDim S100000x8 ![0, 1] bcast_S100000x1_S100000x8_0_1 (broadcastInDim S100000x1 ![0] bcast_S100000_S100000x1_0 (maximumf (broadcastInDim S100000 ![] bcast_S_S100000 (constant S_ .f32 0xFF800000#32)) (Host.reduce FloatOps.maximumf x (constant S_ .f32 0xFF800000#32) reducesTo_S100000x8_S100000_d1 h_S_))))

/-- The row-wise log-softmax: `y - log (Σ exp y)` with `y` the centred row. -/
def logSoftmax (x : (⟨S100000x8, .f32⟩ : BufTy).Contents (Elt F)) : (⟨S100000x8, .f32⟩ : BufTy).Contents (Elt F) :=
  subf (centred x) (broadcastInDim S100000x8 ![0, 1] bcast_S100000x1_S100000x8_0_1 (Host.log (broadcastInDim S100000x1 ![0] bcast_S100000_S100000x1_0 (Host.reduceAdd (Host.exp (centred x)) (constant S_ .f32 0x00000000#32) reducesTo_S100000x8_S100000_d1 h_S_))))

/-- The hidden layer from the first product `hw1 = x · W1`. -/
def hidden (hw1 : (⟨S100000x64, .f32⟩ : BufTy).Contents (Elt F)) (e : (⟨S2x1600000, .i32⟩ : BufTy).Contents (Elt F))
    (b1 : (⟨S64, .f32⟩ : BufTy).Contents (Elt F)) : (⟨S100000x64, .f32⟩ : BufTy).Contents (Elt F) :=
  relu64 (aggregate64 hw1 (srcIdx e) (dstIdx e) (edgeWeight (srcIdx e) (dstIdx e)) b1)

/-- The output from the second product `hw2 = h · W2`. -/
def output (hw2 : (⟨S100000x8, .f32⟩ : BufTy).Contents (Elt F)) (e : (⟨S2x1600000, .i32⟩ : BufTy).Contents (Elt F))
    (b2 : (⟨S8, .f32⟩ : BufTy).Contents (Elt F)) : (⟨S100000x8, .f32⟩ : BufTy).Contents (Elt F) :=
  logSoftmax (aggregate8 hw2 (srcIdx e) (dstIdx e) (edgeWeight (srcIdx e) (dstIdx e)) b2)

/-- The whole network, the two matrix products being the host's `dot_general`. -/
def network (x : (⟨S100000x500, .f32⟩ : BufTy).Contents (Elt F)) (e : (⟨S2x1600000, .i32⟩ : BufTy).Contents (Elt F))
    (W1 : (⟨S500x64, .f32⟩ : BufTy).Contents (Elt F)) (b1 : (⟨S64, .f32⟩ : BufTy).Contents (Elt F))
    (W2 : (⟨S64x8, .f32⟩ : BufTy).Contents (Elt F)) (b2 : (⟨S8, .f32⟩ : BufTy).Contents (Elt F)) : (⟨S100000x8, .f32⟩ : BufTy).Contents (Elt F) :=
  output (Host.dotGeneral dot_S100000x64_S64x8_S100000x8_1_0_0_1_n_n none
    (hidden (Host.dotGeneral dot_S100000x500_S500x64_S100000x64_1_0_0_1_n_n none x W1) e b1) W2) e b2

end Cert.Gcn

end
-- ==== Proof.KernelHost.lean ====
/-
  The host operations of the idealized kernel's @main, read stretch by stretch as functions of the buffers they start from.

  Between the two matrix products the program is host array operations only. Each stretch below is read at the buffers
  the rest of the program uses, from ANY contents `V` of the buffers when the stretch starts: the first builds the
  edge lists with their self loops and the edge weights from the edge-list argument; the second turns the first
  product into the hidden layer (gather, scale, scatter-add, bias, relu); the third turns the second product into the
  output (the same aggregation, then the row-wise log-softmax). The buffers a stretch does not write keep their contents.
  The right-hand sides are the functions of Proof/Network.lean.
-/
import proofs.«166765_j35287451304491_1_alg».proof.Proof.Gen.KernelIdeal.Launch
import proofs.«166765_j35287451304491_1_alg».proof.Proof.Network
import Idealize.ShloMosaic.Lib.StableHlo.Run

noncomputable section

namespace Cert.KernelIdeal.Host

open Cert.KernelIdeal Cert.KernelIdeal.Gen Idealize.ShloMosaic Idealize.ShloMosaic.TcCoe Idealize.ShloMosaic.StableHlo

variable {F : FTy → Type} [FloatOps F] (V : Valuation τ sig (Elt F))

/-! ## The first stretch: the edge lists and the edge weights -/

theorem pre_src : after hostOps0_2 (after hostOps0_1 (after hostOps0 V)) (Proc.devRef .tc main_v3)
    = Cert.Gcn.srcIdx (V (Proc.devRef .tc main_arg1)) := by
  after_results
  rfl

theorem pre_dst : after hostOps0_2 (after hostOps0_1 (after hostOps0 V)) (Proc.devRef .tc main_v6)
    = Cert.Gcn.dstIdx (V (Proc.devRef .tc main_arg1)) := by
  after_results
  rfl

set_option maxHeartbeats 2000000 in
theorem pre_weight : after hostOps0_2 (after hostOps0_1 (after hostOps0 V)) (Proc.devRef .tc main_v29)
    = Cert.Gcn.edgeWeight (Cert.Gcn.srcIdx (V (Proc.devRef .tc main_arg1))) (Cert.Gcn.dstIdx (V (Proc.devRef .tc main_arg1))) := by
  after_results_simp
  try simp only [cast_eq]
  try rfl

theorem pre_arg0 : after hostOps0_2 (after hostOps0_1 (after hostOps0 V)) (Proc.devRef .tc main_arg0) = V (Proc.devRef .tc main_arg0) := by
  after_results
theorem pre_arg2 : after hostOps0_2 (after hostOps0_1 (after hostOps0 V)) (Proc.devRef .tc main_arg2) = V (Proc.devRef .tc main_arg2) := by
  after_results
theorem pre_arg3 : after hostOps0_2 (after hostOps0_1 (after hostOps0 V)) (Proc.devRef .tc main_arg3) = V (Proc.devRef .tc main_arg3) := by
  after_results
theorem pre_arg4 : after hostOps0_2 (after hostOps0_1 (after hostOps0 V)) (Proc.devRef .tc main_arg4) = V (Proc.devRef .tc main_arg4) := by
  after_results
theorem pre_arg5 : after hostOps0_2 (after hostOps0_1 (after hostOps0 V)) (Proc.devRef .tc main_arg5) = V (Proc.devRef .tc main_arg5) := by
  after_results

/-! ## The second stretch: the hidden layer from the first product -/

set_option maxHeartbeats 2000000 in
theorem mid_hidden : after hostOps1_1 (after hostOps1 V) (Proc.devRef .tc main_v47)
    = Cert.Gcn.relu64 (Cert.Gcn.aggregate64 (V (Proc.devRef .tc main_v30)) (V (Proc.devRef .tc main_v3)) (V (Proc.devRef .tc main_v6))
        (V (Proc.devRef .tc main_v29)) (V (Proc.devRef .tc main_arg3))) := by
  after_results_simp
  try simp only [cast_eq]
  try rfl

theorem mid_v3 : after hostOps1_1 (after hostOps1 V) (Proc.devRef .tc main_v3) = V (Proc.devRef .tc main_v3) := by
  after_results
theorem mid_v6 : after hostOps1_1 (after hostOps1 V) (Proc.devRef .tc main_v6) = V (Proc.devRef .tc main_v6) := by
  after_results
theorem mid_v29 : after hostOps1_1 (after hostOps1 V) (Proc.devRef .tc main_v29) = V (Proc.devRef .tc main_v29) := by
  after_results
theorem mid_arg4 : after hostOps1_1 (after hostOps1 V) (Proc.devRef .tc main_arg4) = V (Proc.devRef .tc main_arg4) := by
  after_results
theorem mid_arg5 : after hostOps1_1 (after hostOps1 V) (Proc.devRef .tc main_arg5) = V (Proc.devRef .tc main_arg5) := by
  after_results

/-! ## The third stretch: the output from the second product -/

set_option maxHeartbeats 2000000 in
theorem tail_out : after hostOps2_1 (after hostOps2 V) (Proc.devRef .tc main_v65)
    = Cert.Gcn.logSoftmax (Cert.Gcn.aggregate8 (V (Proc.devRef .tc main_v48)) (V (Proc.devRef .tc main_v3)) (V (Proc.devRef .tc main_v6))
        (V (Proc.devRef .tc main_v29)) (V (Proc.devRef .tc main_arg5))) := by
  after_results_simp
  try simp only [cast_eq]
  try rfl

end Cert.KernelIdeal.Host

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«166765_j35287451304491_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.Product0.lean ====
/-
  The first matrix product, computed block by block over the rows, is the whole product.

  The region's grid has 25 points. Point `t` stages rows `4000·t … 4000·t + 3999` of the left operand (a
  [100000, 500] array) and the whole right operand (a [500, 64] array), multiplies them on the matrix unit into a
  zero accumulator — the operands narrowed to bf16 first, which over the extended reals changes nothing — and writes the
  [4000, 64] block back to the same rows of the result. Entry `(r, c)` of a block product is the sum over `k` of
  `x (r, k) · w (k, c)`, which only reads row `r` of the left operand; so the block that point `t` writes back is the block
  of the whole product `rowsTimes x w` at those rows, and since the 25 blocks tile the result's rows the result array
  ends holding `rowsTimes x w`. Nothing here needs the entries to be finite: both sides are the same sums of the same products.
-/
import proofs.«166765_j35287451304491_1_alg».proof.Proof.Gen.KernelIdeal.Frame
import proofs.«166765_j35287451304491_1_alg».proof.Proof.LibRowsTimes
import Idealize.ShloMosaic.Lib.Pipeline.Value

noncomputable section

namespace Cert.KernelIdeal.Product0

open Cert.KernelIdeal Cert.KernelIdeal.Gen Idealize.ShloMosaic Idealize.ShloMosaic.TcCoe Idealize.SL.Sem
open Idealize.ShloMosaic.ValueIdx Idealize.ShloMosaic.RowsTimes
open Idealize.ShloMosaic.Pipeline (Dat)

-- the buffers' contents when the region is entered
variable (V : (c : Dev nD) → (b : Ref sig .tc) → Buf (Elt Ideal) ((c : Thread nD τ).loc b))

/-- An array's contents named as a function into the extended reals. -/
abbrev asReal {S : Shape} (x : S.Idx → EReal) : S.Idx → EReal := x

theorem offset_zero : (![0, 0] : Fin 2 → Nat) = fun _ => 0 := funext fun a => by fin_cases a <;> rfl

/-- One block product at an entry: the sum over the contraction index of the products of the loaded blocks' entries. -/
theorem payload_apply (x0 : Vec Ideal S4000x500 .f32) (x1 : Vec Ideal S500x64 .f32) (p : Fin 4000) (q : Fin 64) :
    k0_pay1 x0 x1 (ix2 p q) = ∑ k : Fin 500, x0 (ix2 p k) * x1 (ix2 k q) := by
  unfold k0_pay1
  refine (matmul_zero_apply dot_S4000x500_S500x64_S4000x64_1_0_0_1_n_n rfl rfl rfl rfl rfl rfl rfl rfl none _ _ p q).trans ?_
  refine Finset.sum_congr rfl fun k _ => ?_
  rfl

/-- Where each window's block sits at point `t`: the left operand's and the result's at row block `t`, the right operand whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is the block, at the point's rows, of the whole product of the two arrays as the region
    finds them. -/
theorem flushed_eq (c : Dev nD) (t : Fin cfg0.N) :
    (dat0 V c).flushed 2 t
      = ((cfg0.win 2).blk t).view.read (Elt Ideal) (rowsTimes (M := 100000) (K := 500) (N := 64) (V c main_arg0) (V c main_arg2)) := by
  show (cfg0.win 2).cut (grid0.coords t) ((dat0 V c).after 2 t) = _
  rw [after0_2]
  unfold out0_2
  rw [View.canon_unit_zero offset_zero]
  simp only [View.ld_unit_zero (S := S4000x500) offset_zero, View.ld_unit_zero (S := S500x64) offset_zero]
  obtain ⟨e00, e01, e10, e11, e20, e21⟩ := block_indices t
  funext j
  obtain ⟨p, q, rfl⟩ : ∃ (p : Fin 4000) (q : Fin 64), j = ix2 p q := ⟨j 0, j 1, eq_ix2 j⟩
  refine (payload_apply (iblk0 V c 0 t) (iblk0 V c 1 t) p q).trans ?_
  show ∑ k : Fin 500, asReal (S := S100000x500) (V c main_arg0) (((cfg0.win 0).blk t).view.emb (ix2 p k)) * asReal (S := S500x64) (V c main_arg2) (((cfg0.win 1).blk t).view.emb (ix2 k q))
    = ∑ k : Fin 500, asReal (S := S100000x500) (V c main_arg0) (ix2 ((((cfg0.win 2).blk t).view.emb (ix2 p q)) 0) k) * asReal (S := S500x64) (V c main_arg2) (ix2 k ((((cfg0.win 2).blk t).view.emb (ix2 p q)) 1))
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 500 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 500 + 1 * k.val = k.val; omega
    | ⟨1, _⟩ => show win0_1.index t (1 : Fin 2) * 64 + 1 * q.val = win0_2.index t (1 : Fin 2) * 64 + 1 * q.val; omega
  rw [hl, hr]
  rfl

/-- An index of the result array is in point `t`'s block iff each coordinate is in the block's range on its axis. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Every row of the result is in some point's block: row `r` in point `r / 4000`'s. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 25 := N_0
  have ht : (i 0).val / 4000 < cfg0.N := by show (i 0).val / 4000 < grid0.N; rw [hN]; omega
  obtain ⟨e00, e01, e10, e11, e20, e21⟩ := block_indices ⟨(i 0).val / 4000, ht⟩
  have e20' : win0_2.index ⟨(i 0).val / 4000, ht⟩ (0 : Fin 2) = (i 0).val / 4000 := e20
  refine ⟨⟨(i 0).val / 4000, ht⟩, flush0_2 _, ?_⟩
  rw [mem_block]
  intro a
  match a with
  | ⟨0, _⟩ => show win0_2.index ⟨(i 0).val / 4000, ht⟩ (0 : Fin 2) * 4000 ≤ (i 0).val ∧ (i 0).val < win0_2.index ⟨(i 0).val / 4000, ht⟩ (0 : Fin 2) * 4000 + 4000; omega
  | ⟨1, _⟩ => show win0_2.index ⟨(i 0).val / 4000, ht⟩ (1 : Fin 2) * 64 ≤ (i 1).val ∧ (i 1).val < win0_2.index ⟨(i 0).val / 4000, ht⟩ (1 : Fin 2) * 64 + 64; omega

/-- The result array after the region is the whole product of the two operand arrays as the region finds them. -/
theorem array_eq (c : Dev nD) :
    (dat0 V c).arrAt 2 cfg0.N = rowsTimes (M := 100000) (K := 500) (N := 64) (V c main_arg0) (V c main_arg2) :=
  (dat0 V c).arrAt_eq_of_cover 2 _ (fun t _ => flushed_eq V c t) covered

end Cert.KernelIdeal.Product0

end
-- ==== Proof.Product1.lean ====
/-
  The second matrix product, computed block by block over the rows, is the whole product.

  The region's grid has 10 points. Point `t` stages rows `10000·t … 10000·t + 9999` of the left operand (a
  [100000, 64] array) and the whole right operand (a [64, 8] array), multiplies them on the matrix unit into a
  zero accumulator — the operands narrowed to bf16 first, which over the extended reals changes nothing — and writes the
  [10000, 8] block back to the same rows of the result. Entry `(r, c)` of a block product is the sum over `k` of
  `x (r, k) · w (k, c)`, which only reads row `r` of the left operand; so the block that point `t` writes back is the block
  of the whole product `rowsTimes x w` at those rows, and since the 10 blocks tile the result's rows the result array
  ends holding `rowsTimes x w`. Nothing here needs the entries to be finite: both sides are the same sums of the same products.
-/
import proofs.«166765_j35287451304491_1_alg».proof.Proof.Gen.KernelIdeal.Frame
import proofs.«166765_j35287451304491_1_alg».proof.Proof.LibRowsTimes
import Idealize.ShloMosaic.Lib.Pipeline.Value

noncomputable section

namespace Cert.KernelIdeal.Product1

open Cert.KernelIdeal Cert.KernelIdeal.Gen Idealize.ShloMosaic Idealize.ShloMosaic.TcCoe Idealize.SL.Sem
open Idealize.ShloMosaic.ValueIdx Idealize.ShloMosaic.RowsTimes
open Idealize.ShloMosaic.Pipeline (Dat)

-- the buffers' contents when the region is entered
variable (V : (c : Dev nD) → (b : Ref sig .tc) → Buf (Elt Ideal) ((c : Thread nD τ).loc b))

/-- An array's contents named as a function into the extended reals. -/
abbrev asReal {S : Shape} (x : S.Idx → EReal) : S.Idx → EReal := x

theorem offset_zero : (![0, 0] : Fin 2 → Nat) = fun _ => 0 := funext fun a => by fin_cases a <;> rfl

/-- One block product at an entry: the sum over the contraction index of the products of the loaded blocks' entries. -/
theorem payload_apply (x0 : Vec Ideal S10000x64 .f32) (x1 : Vec Ideal S64x8 .f32) (p : Fin 10000) (q : Fin 8) :
    k1_pay1 x0 x1 (ix2 p q) = ∑ k : Fin 64, x0 (ix2 p k) * x1 (ix2 k q) := by
  unfold k1_pay1
  refine (matmul_zero_apply dot_S10000x64_S64x8_S10000x8_1_0_0_1_n_n rfl rfl rfl rfl rfl rfl rfl rfl none _ _ p q).trans ?_
  refine Finset.sum_congr rfl fun k _ => ?_
  show shapeCast S10000x64 x0 shapeCasts_S10000x64_S10000x64 (ix2 p k) * x1 (ix2 k q) = x0 (ix2 p k) * x1 (ix2 k q)
  rw [shapeCast_self]

/-- Where each window's block sits at point `t`: the left operand's and the result's at row block `t`, the right operand whole. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is the block, at the point's rows, of the whole product of the two arrays as the region
    finds them. -/
theorem flushed_eq (c : Dev nD) (t : Fin cfg1.N) :
    (dat1 V c).flushed 2 t
      = ((cfg1.win 2).blk t).view.read (Elt Ideal) (rowsTimes (M := 100000) (K := 64) (N := 8) (V c main_v47) (V c main_arg4)) := by
  show (cfg1.win 2).cut (grid1.coords t) ((dat1 V c).after 2 t) = _
  rw [after1_2]
  unfold out1_2
  rw [View.canon_unit_zero offset_zero]
  simp only [View.ld_unit_zero (S := S10000x64) offset_zero, View.ld_unit_zero (S := S64x8) offset_zero]
  obtain ⟨e00, e01, e10, e11, e20, e21⟩ := block_indices t
  funext j
  obtain ⟨p, q, rfl⟩ : ∃ (p : Fin 10000) (q : Fin 8), j = ix2 p q := ⟨j 0, j 1, eq_ix2 j⟩
  refine (payload_apply (iblk1 V c 0 t) (iblk1 V c 1 t) p q).trans ?_
  show ∑ k : Fin 64, asReal (S := S100000x64) (V c main_v47) (((cfg1.win 0).blk t).view.emb (ix2 p k)) * asReal (S := S64x8) (V c main_arg4) (((cfg1.win 1).blk t).view.emb (ix2 k q))
    = ∑ k : Fin 64, asReal (S := S100000x64) (V c main_v47) (ix2 ((((cfg1.win 2).blk t).view.emb (ix2 p q)) 0) k) * asReal (S := S64x8) (V c main_arg4) (ix2 k ((((cfg1.win 2).blk t).view.emb (ix2 p q)) 1))
  refine Finset.sum_congr rfl fun k _ => ?_
  have hl : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  have hr : ((cfg1.win 1).blk t).view.emb (ix2 k q) = ix2 k ((((cfg1.win 2).blk t).view.emb (ix2 p q)) 1) := by
    funext a; apply Fin.ext
    match a with
    | ⟨0, _⟩ => show win1_1.index t (0 : Fin 2) * 64 + 1 * k.val = k.val; omega
    | ⟨1, _⟩ => show win1_1.index t (1 : Fin 2) * 8 + 1 * q.val = win1_2.index t (1 : Fin 2) * 8 + 1 * q.val; omega
  rw [hl, hr]
  rfl

/-- An index of the result array is in point `t`'s block iff each coordinate is in the block's range on its axis. -/
theorem mem_block (t : Fin cfg1.N) (i : S100000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v48).slice (win1_2.rect t)).set ↔ _
  rw [View.set_slice_whole, Rect.mem_set_unit]
  exact Iff.rfl

/-- Every row of the result is in some point's block: row `r` in point `r / 10000`'s. -/
theorem covered (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  have hN : grid1.N = 10 := N_1
  have ht : (i 0).val / 10000 < cfg1.N := by show (i 0).val / 10000 < grid1.N; rw [hN]; omega
  obtain ⟨e00, e01, e10, e11, e20, e21⟩ := block_indices ⟨(i 0).val / 10000, ht⟩
  have e20' : win1_2.index ⟨(i 0).val / 10000, ht⟩ (0 : Fin 2) = (i 0).val / 10000 := e20
  refine ⟨⟨(i 0).val / 10000, ht⟩, flush1_2 _, ?_⟩
  rw [mem_block]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 8 ≤ (i 1).val ∧ (i 1).val < win1_2.index ⟨(i 0).val / 10000, ht⟩ (1 : Fin 2) * 8 + 8; omega

/-- The result array after the region is the whole product of the two operand arrays as the region finds them. -/
theorem array_eq (c : Dev nD) :
    (dat1 V c).arrAt 2 cfg1.N = rowsTimes (M := 100000) (K := 64) (N := 8) (V c main_v47) (V c main_arg4) :=
  (dat1 V c).arrAt_eq_of_cover 2 _ (fun t _ => flushed_eq V c t) covered

end Cert.KernelIdeal.Product1

end
-- ==== Proof.KernelResult.lean ====
/-
  What the idealized kernel's result buffer holds after the run: the network of the six arguments.

  The run's buffer contents at the segment boundaries are a fold from the launch memory. Walking it: the first host
  stretch leaves the edge lists and the edge weights (functions of the edge-list argument only) and the arguments as
  launched; the first region leaves the whole product `x · W1` in its output array — the block-by-block product is the
  whole one, and over the extended reals that is what the host's `dot_general` computes — and touches nothing else
  that is read later; the second stretch makes the hidden layer of it; the second region leaves `h · W2`; the last
  stretch aggregates once more and takes the row-wise log-softmax. The edge lists, the weights and the arguments are
  carried through every step unchanged, so the result is `network x e W1 b1 W2 b2` of the launch contents.
-/
import proofs.«166765_j35287451304491_1_alg».proof.Proof.KernelHost
import proofs.«166765_j35287451304491_1_alg».proof.Proof.Product0
import proofs.«166765_j35287451304491_1_alg».proof.Proof.Product1

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.RowsTimes

variable (m : (ℓ : Loc nD τ sig) → Buf (Elt Ideal) ℓ) (ρ : Dev nD → PrngReg)

/-! ## The edge lists and the edge weights, at every boundary where they are read -/

theorem src3 (c : Dev nD) : W3 m ρ c (Proc.devRef .tc main_v3) = Cert.Gcn.srcIdx (F := Ideal) (m ((c : Thread nD τ).loc main_arg1)) := Host.pre_src (W0 m ρ c)
theorem src4 (c : Dev nD) : W4 m ρ c (Proc.devRef .tc main_v3) = Cert.Gcn.srcIdx (F := Ideal) (m ((c : Thread nD τ).loc main_arg1)) := (W4_of_ne m ρ c main_v3 (by decide)).trans (src3 m ρ c)
theorem src6 (c : Dev nD) : W6 m ρ c (Proc.devRef .tc main_v3) = Cert.Gcn.srcIdx (F := Ideal) (m ((c : Thread nD τ).loc main_arg1)) := (Host.mid_v3 (W4 m ρ c)).trans (src4 m ρ c)
theorem src7 (c : Dev nD) : W7 m ρ c (Proc.devRef .tc main_v3) = Cert.Gcn.srcIdx (F := Ideal) (m ((c : Thread nD τ).loc main_arg1)) := (W7_of_ne m ρ c main_v3 (by decide)).trans (src6 m ρ c)

theorem dst3 (c : Dev nD) : W3 m ρ c (Proc.devRef .tc main_v6) = Cert.Gcn.dstIdx (F := Ideal) (m ((c : Thread nD τ).loc main_arg1)) := Host.pre_dst (W0 m ρ c)
theorem dst4 (c : Dev nD) : W4 m ρ c (Proc.devRef .tc main_v6) = Cert.Gcn.dstIdx (F := Ideal) (m ((c : Thread nD τ).loc main_arg1)) := (W4_of_ne m ρ c main_v6 (by decide)).trans (dst3 m ρ c)
theorem dst6 (c : Dev nD) : W6 m ρ c (Proc.devRef .tc main_v6) = Cert.Gcn.dstIdx (F := Ideal) (m ((c : Thread nD τ).loc main_arg1)) := (Host.mid_v6 (W4 m ρ c)).trans (dst4 m ρ c)
theorem dst7 (c : Dev nD) : W7 m ρ c (Proc.devRef .tc main_v6) = Cert.Gcn.dstIdx (F := Ideal) (m ((c : Thread nD τ).loc main_arg1)) := (W7_of_ne m ρ c main_v6 (by decide)).trans (dst6 m ρ c)

theorem weight3 (c : Dev nD) : W3 m ρ c (Proc.devRef .tc main_v29) = Cert.Gcn.edgeWeight (F := Ideal) (Cert.Gcn.srcIdx (m ((c : Thread nD τ).loc main_arg1))) (Cert.Gcn.dstIdx (m ((c : Thread nD τ).loc main_arg1))) := Host.pre_weight (W0 m ρ c)
theorem weight4 (c : Dev nD) : W4 m ρ c (Proc.devRef .tc main_v29) = Cert.Gcn.edgeWeight (F := Ideal) (Cert.Gcn.srcIdx (m ((c : Thread nD τ).loc main_arg1))) (Cert.Gcn.dstIdx (m ((c : Thread nD τ).loc main_arg1))) := (W4_of_ne m ρ c main_v29 (by decide)).trans (weight3 m ρ c)
theorem weight6 (c : Dev nD) : W6 m ρ c (Proc.devRef .tc main_v29) = Cert.Gcn.edgeWeight (F := Ideal) (Cert.Gcn.srcIdx (m ((c : Thread nD τ).loc main_arg1))) (Cert.Gcn.dstIdx (m ((c : Thread nD τ).loc main_arg1))) := (Host.mid_v29 (W4 m ρ c)).trans (weight4 m ρ c)
theorem weight7 (c : Dev nD) : W7 m ρ c (Proc.devRef .tc main_v29) = Cert.Gcn.edgeWeight (F := Ideal) (Cert.Gcn.srcIdx (m ((c : Thread nD τ).loc main_arg1))) (Cert.Gcn.dstIdx (m ((c : Thread nD τ).loc main_arg1))) := (W7_of_ne m ρ c main_v29 (by decide)).trans (weight6 m ρ c)

/-! ## The arguments, where a later step reads them -/

theorem arg0_3 (c : Dev nD) : W3 m ρ c (Proc.devRef .tc main_arg0) = m ((c : Thread nD τ).loc main_arg0) := Host.pre_arg0 (W0 m ρ c)
theorem arg2_3 (c : Dev nD) : W3 m ρ c (Proc.devRef .tc main_arg2) = m ((c : Thread nD τ).loc main_arg2) := Host.pre_arg2 (W0 m ρ c)
theorem arg3_4 (c : Dev nD) : W4 m ρ c (Proc.devRef .tc main_arg3) = m ((c : Thread nD τ).loc main_arg3) :=
  (W4_of_ne m ρ c main_arg3 (by decide)).trans (Host.pre_arg3 (W0 m ρ c))
theorem arg4_6 (c : Dev nD) : W6 m ρ c (Proc.devRef .tc main_arg4) = m ((c : Thread nD τ).loc main_arg4) :=
  (Host.mid_arg4 (W4 m ρ c)).trans ((W4_of_ne m ρ c main_arg4 (by decide)).trans (Host.pre_arg4 (W0 m ρ c)))
theorem arg5_7 (c : Dev nD) : W7 m ρ c (Proc.devRef .tc main_arg5) = m ((c : Thread nD τ).loc main_arg5) :=
  (W7_of_ne m ρ c main_arg5 (by decide)).trans ((Host.mid_arg5 (W4 m ρ c)).trans
    ((W4_of_ne m ρ c main_arg5 (by decide)).trans (Host.pre_arg5 (W0 m ρ c))))

/-! ## The two products -/

/-- The first region leaves `x · W1`, as the host's `dot_general` computes it, in its output array. -/
theorem product0 (c : Dev nD) : W4 m ρ c (Proc.devRef .tc main_v30)
    = Host.dotGeneral (F := Ideal) (φ₁ := .f32) (φ₂ := .f32) Cert.ReferenceIdeal.dot_S100000x500_S500x64_S100000x64_1_0_0_1_n_n none (m ((c : Thread nD τ).loc main_arg0)) (m ((c : Thread nD τ).loc main_arg2)) :=
  (W4_arr m ρ c 2).trans <| (Product0.array_eq (V3 m ρ) c).trans <|
    (congrArg₂ (rowsTimes (M := 100000) (K := 500) (N := 64)) (arg0_3 m ρ c) (arg2_3 m ρ c)).trans
      (hostDot_eq (φ₁ := .f32) (φ₂ := .f32) Cert.ReferenceIdeal.dot_S100000x500_S500x64_S100000x64_1_0_0_1_n_n rfl rfl rfl rfl rfl rfl rfl rfl none _ _).symm

/-- The second region leaves `h · W2`, `h` being what the region finds in the hidden layer's buffer. -/
theorem product1 (c : Dev nD) : W7 m ρ c (Proc.devRef .tc main_v48)
    = Host.dotGeneral (F := Ideal) (φ₁ := .f32) (φ₂ := .f32) Cert.ReferenceIdeal.dot_S100000x64_S64x8_S100000x8_1_0_0_1_n_n none (W6 m ρ c (Proc.devRef .tc main_v47)) (m ((c : Thread nD τ).loc main_arg4)) :=
  (W7_arr m ρ c 2).trans <| (Product1.array_eq (V6 m ρ) c).trans <|
    (congrArg (rowsTimes (M := 100000) (K := 64) (N := 8) (V6 m ρ c main_v47)) (arg4_6 m ρ c)).trans
      (hostDot_eq (φ₁ := .f32) (φ₂ := .f32) Cert.ReferenceIdeal.dot_S100000x64_S64x8_S100000x8_1_0_0_1_n_n rfl rfl rfl rfl rfl rfl rfl rfl none _ _).symm

/-! ## The hidden layer and the result -/

theorem hidden_eq (c : Dev nD) : W6 m ρ c (Proc.devRef .tc main_v47)
    = Cert.Gcn.hidden (F := Ideal) (Host.dotGeneral (F := Ideal) (φ₁ := .f32) (φ₂ := .f32) Cert.ReferenceIdeal.dot_S100000x500_S500x64_S100000x64_1_0_0_1_n_n none (m ((c : Thread nD τ).loc main_arg0)) (m ((c : Thread nD τ).loc main_arg2)))
        (m ((c : Thread nD τ).loc main_arg1)) (m ((c : Thread nD τ).loc main_arg3)) :=
  (Host.mid_hidden (W4 m ρ c)).trans (by
    rw [product0 m ρ c, src4 m ρ c, dst4 m ρ c, weight4 m ρ c, arg3_4 m ρ c]
    rfl)

/-- The result buffer at the last boundary is the network of the launch contents of the six arguments. -/
theorem result_eq (c : Dev nD) : W9 m ρ c (Proc.devRef .tc main_v65)
    = Cert.Gcn.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Host.tail_out (W7 m ρ c)).trans (by
    rw [product1 m ρ c, hidden_eq m ρ c, src7 m ρ c, dst7 m ρ c, weight7 m ρ c, arg5_7 m ρ c]
    rfl)

end Cert.KernelIdeal.Result

end
-- ==== Proof.RefHost.lean ====
/-
  The host operations of the idealized reference's @main, read stretch by stretch as functions of the buffers they start from.

  The reference is host array operations only, the two matrix products being `dot_general`s; here the first product opens
  the second stretch and the second product the third. Each stretch below is read at the buffers
  the rest of the program uses, from ANY contents `V` of the buffers when the stretch starts: the first builds the
  edge lists with their self loops and the edge weights from the edge-list argument; the second turns the first
  product into the hidden layer (gather, scale, scatter-add, bias, relu); the third turns the second product into the
  output (the same aggregation, then the row-wise log-softmax). The buffers a stretch does not write keep their contents.
  The right-hand sides are the functions of Proof/Network.lean.
-/
import proofs.«166765_j35287451304491_1_alg».proof.Proof.RefRun
import Idealize.ShloMosaic.Lib.Pipeline.Frame
import proofs.«166765_j35287451304491_1_alg».proof.Proof.Network
import Idealize.ShloMosaic.Lib.StableHlo.Run

noncomputable section

namespace Cert.ReferenceIdeal.Host

open Cert.ReferenceIdeal Cert.ReferenceIdeal.Gen Cert.ReferenceIdeal.ValueP Idealize.ShloMosaic Idealize.ShloMosaic.TcCoe Idealize.ShloMosaic.StableHlo

variable {F : FTy → Type} [FloatOps F] (V : Valuation τ sig (Elt F))

/-! ## @main's 98 operations in three stretches -/

/-- Operations 1 to 40: the edge lists, the degrees, the edge weights. -/
abbrev preOps : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operations 41 to 63: the first product and the hidden layer. -/
abbrev midOps : List (HloOp τ sig (Elt F)) :=
  [ binary main_arg0 main_arg2 main_v30 ((fun l r => Host.dotGeneral dot_S100000x500_S500x64_S100000x64_1_0_0_1_n_n none l r) : (⟨S100000x500, .f32⟩ : BufTy).Contents (Elt F) → (⟨S500x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- Operations 64 to 98: the second product, the output aggregation and the log-softmax. -/
abbrev tailOps : List (HloOp τ sig (Elt F)) :=
  [ binary main_v47 main_arg4 main_v48 ((fun l r => Host.dotGeneral dot_S100000x64_S64x8_S100000x8_1_0_0_1_n_n none l r) : (⟨S100000x64, .f32⟩ : BufTy).Contents (Elt F) → (⟨S64x8, .f32⟩ : BufTy).Contents (Elt F) → (⟨S100000x8, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x8_S1700000x1_S1700000x8_1_0_n_n_0_1_18 x i) : (⟨S100000x8, .f32⟩ : BufTy).Contents (Elt F) → (⟨S1700000x1, .i32⟩ : BufTy).Contents (Elt F) → (⟨S1700000x8, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x8 ![0, 1] bcast_S1700000x1_S1700000x8_0_1 : (⟨S1700000x1, .f32⟩ : BufTy).Contents (Elt F) → (⟨S1700000x8, .f32⟩ : BufTy).Contents (Elt F)),
    binary main_v55 main_v57 main_v58 (mulf : (⟨S1700000x8, .f32⟩ : BufTy).Contents (Elt F) → (⟨S1700000x8, .f32⟩ : BufTy).Contents (Elt F) → (⟨S1700000x8, .f32⟩ : BufTy).Contents (Elt F)),
    nullary main_cst_11 (constant S_ .f32 0x00000000#32),
    unary main_cst_11 main_v59 (broadcastInDim S100000x8 ![] bcast_S_S100000x8 : (⟨S_, .f32⟩ : BufTy).Contents (Elt F) → (⟨S100000x8, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x8_S1700000x1_S1700000x8_1_0_0_1 x i u) : (⟨S100000x8, .f32⟩ : BufTy).Contents (Elt F) → (⟨S1700000x1, .i32⟩ : BufTy).Contents (Elt F) → (⟨S1700000x8, .f32⟩ : BufTy).Contents (Elt F) → (⟨S100000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S100000x8 ![0, 1] bcast_S1x8_S100000x8_0_1 : (⟨S1x8, .f32⟩ : BufTy).Contents (Elt F) → (⟨S100000x8, .f32⟩ : BufTy).Contents (Elt F)),
    binary main_v61 main_v63 main_v64 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call2_cst) (constant S_ .f32 0xFF800000#32),
    TRef.binary (TRef.of (T := ⟨S100000x8, .f32⟩) main_v64) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v64) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v65) subf ]

/-- @main's operations are the three stretches one after the other. -/
theorem ops_split : (ops : List (HloOp τ sig (Elt F))) = preOps ++ (midOps ++ tailOps) := rfl

/-! ## The first stretch: the edge lists and the edge weights -/

theorem pre_src : after preOps V (Proc.devRef .tc main_v3)
    = Cert.Gcn.srcIdx (V (Proc.devRef .tc main_arg1)) := by
  after_results
  rfl

theorem pre_dst : after preOps V (Proc.devRef .tc main_v6)
    = Cert.Gcn.dstIdx (V (Proc.devRef .tc main_arg1)) := by
  after_results
  rfl

set_option maxHeartbeats 2000000 in
theorem pre_weight : after preOps V (Proc.devRef .tc main_v29)
    = Cert.Gcn.edgeWeight (Cert.Gcn.srcIdx (V (Proc.devRef .tc main_arg1))) (Cert.Gcn.dstIdx (V (Proc.devRef .tc main_arg1))) := by
  after_results_simp
  try simp only [cast_eq]
  try rfl

theorem pre_arg0 : after preOps V (Proc.devRef .tc main_arg0) = V (Proc.devRef .tc main_arg0) := by
  after_results
theorem pre_arg2 : after preOps V (Proc.devRef .tc main_arg2) = V (Proc.devRef .tc main_arg2) := by
  after_results
theorem pre_arg3 : after preOps V (Proc.devRef .tc main_arg3) = V (Proc.devRef .tc main_arg3) := by
  after_results
theorem pre_arg4 : after preOps V (Proc.devRef .tc main_arg4) = V (Proc.devRef .tc main_arg4) := by
  after_results
theorem pre_arg5 : after preOps V (Proc.devRef .tc main_arg5) = V (Proc.devRef .tc main_arg5) := by
  after_results

/-! ## The second stretch: the hidden layer from the first product -/

set_option maxHeartbeats 2000000 in
theorem mid_hidden : after midOps V (Proc.devRef .tc main_v47)
    = Cert.Gcn.relu64 (Cert.Gcn.aggregate64 (Host.dotGeneral dot_S100000x500_S500x64_S100000x64_1_0_0_1_n_n none (V (Proc.devRef .tc main_arg0)) (V (Proc.devRef .tc main_arg2))) (V (Proc.devRef .tc main_v3)) (V (Proc.devRef .tc main_v6))
        (V (Proc.devRef .tc main_v29)) (V (Proc.devRef .tc main_arg3))) := by
  after_results_simp
  try simp only [cast_eq]
  try rfl

theorem mid_v3 : after midOps V (Proc.devRef .tc main_v3) = V (Proc.devRef .tc main_v3) := by
  after_results
theorem mid_v6 : after midOps V (Proc.devRef .tc main_v6) = V (Proc.devRef .tc main_v6) := by
  after_results
theorem mid_v29 : after midOps V (Proc.devRef .tc main_v29) = V (Proc.devRef .tc main_v29) := by
  after_results
theorem mid_arg4 : after midOps V (Proc.devRef .tc main_arg4) = V (Proc.devRef .tc main_arg4) := by
  after_results
theorem mid_arg5 : after midOps V (Proc.devRef .tc main_arg5) = V (Proc.devRef .tc main_arg5) := by
  after_results

/-! ## The third stretch: the output from the second product -/

set_option maxHeartbeats 2000000 in
theorem tail_out : after tailOps V (Proc.devRef .tc main_v65)
    = Cert.Gcn.logSoftmax (Cert.Gcn.aggregate8 (Host.dotGeneral dot_S100000x64_S64x8_S100000x8_1_0_0_1_n_n none (V (Proc.devRef .tc main_v47)) (V (Proc.devRef .tc main_arg4))) (V (Proc.devRef .tc main_v3)) (V (Proc.devRef .tc main_v6))
        (V (Proc.devRef .tc main_v29)) (V (Proc.devRef .tc main_arg5))) := by
  after_results_simp
  try simp only [cast_eq]
  try rfl

/-! ## The whole program -/

/-- The result buffer after all 98 operations, from any contents `V` of the buffers at launch: the network of the six
    argument buffers' contents. -/
theorem value : after ops V (Proc.devRef .tc main_v65)
    = Cert.Gcn.network (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split, StableHlo.after_append, StableHlo.after_append]
  rw [tail_out, mid_hidden, mid_v3, mid_v6, mid_v29, mid_arg4, mid_arg5, pre_src, pre_dst, pre_weight, pre_arg0, pre_arg2,
    pre_arg3, pre_arg4, pre_arg5]
  rfl

/-- No operation writes an argument buffer. -/
theorem kept_arg0 : after ops V (Proc.devRef .tc main_arg0) = V (Proc.devRef .tc main_arg0) := by
  after_results_simp
theorem kept_arg1 : after ops V (Proc.devRef .tc main_arg1) = V (Proc.devRef .tc main_arg1) := by
  after_results_simp
theorem kept_arg2 : after ops V (Proc.devRef .tc main_arg2) = V (Proc.devRef .tc main_arg2) := by
  after_results_simp
theorem kept_arg3 : after ops V (Proc.devRef .tc main_arg3) = V (Proc.devRef .tc main_arg3) := by
  after_results_simp
theorem kept_arg4 : after ops V (Proc.devRef .tc main_arg4) = V (Proc.devRef .tc main_arg4) := by
  after_results_simp
theorem kept_arg5 : after ops V (Proc.devRef .tc main_arg5) = V (Proc.devRef .tc main_arg5) := by
  after_results_simp

end Cert.ReferenceIdeal.Host

end
-- ==== Proof.RefResult.lean ====
/-
  The idealized reference's run with its result named: every weakly fair execution of @main terminates, the result
  buffer holding the network of the six arguments' launch contents and the arguments unchanged.

  @main is a straight line of 98 host operations, so every buffer ends at the fold of the operations' results over its launch
  contents; the fold at the result buffer is the network (read stretch by stretch in Proof/RefHost.lean), and no operation
  writes an argument.
-/
import proofs.«166765_j35287451304491_1_alg».proof.Proof.RefHost

noncomputable section

namespace Cert.ReferenceIdeal.Result

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = Cert.Gcn.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (Host.value (launchContents m c)),
      (h c main_arg0).trans (Host.kept_arg0 (launchContents m c)),
      (h c main_arg1).trans (Host.kept_arg1 (launchContents m c)),
      (h c main_arg2).trans (Host.kept_arg2 (launchContents m c)),
      (h c main_arg3).trans (Host.kept_arg3 (launchContents m c)),
      (h c main_arg4).trans (Host.kept_arg4 (launchContents m c)),
      (h c main_arg5).trans (Host.kept_arg5 (launchContents m c))⟩)
    (run_seq scopedRefs_eq scopedSems_eq defs main (fun _ => ops) main_eq (fun _ => ops_sub) m ρ)

end Cert.ReferenceIdeal.Result

end
-- ==== Proof.lean ====
/-
  A two-layer graph convolution with a row-wise log-softmax, its two dense products on the matrix unit, against the same
  network with the products as the host's `dot_general`.

  Kernel and reference run the same host operations around the two products: the edge lists with a self loop per node,
  the in-degrees and the weights `dinv[src] · dinv[dst]`, and per layer a gather of the source rows, the scaling, a
  scatter-add into the target rows and the bias; a relu between the layers and the log-softmax at the end. They differ in
  the products only: the kernel computes `x · W1` and `h · W2` in row blocks (25 blocks of 4000 rows, 10 blocks of 10000
  rows), each block a matrix-unit product of operands narrowed to bf16 into a zero accumulator, where the reference has one
  `dot_general` each. Over the extended reals narrowing changes nothing, a block product's entry `(r, c)` is the sum over
  `k` of `x (r, k) · w (k, c)` and reads row `r` of the left operand only, and the blocks tile the rows: so each region
  leaves exactly the array the `dot_general` computes (Proof/Product0.lean, Proof/Product1.lean over Proof/LibRowsTimes.lean),
  the same sums of the same products — no finiteness of the inputs is used anywhere. Both programs then end with
  `network x e W1 b1 W2 b2` (Proof/Network.lean) of their arguments: the kernel by walking its nine segments
  (Proof/KernelResult.lean over Proof/KernelHost.lean and the run of Proof/KernelRun.lean), the reference by folding its 98
  operations (Proof/RefResult.lean over Proof/RefHost.lean). The kernel's idealization rewrote no operation, so it preserves
  the kernel trivially; the three frames are the two generated frame certificates and the reference's run with the result
  dropped.
-/
import proofs.«166765_j35287451304491_1_alg».proof.Defs
import proofs.«166765_j35287451304491_1_alg».proof.Proof.Gen.Kernel
import proofs.«166765_j35287451304491_1_alg».proof.Proof.Gen.Kernel.Skeleton
import proofs.«166765_j35287451304491_1_alg».proof.Proof.Gen.Kernel.Launch
import proofs.«166765_j35287451304491_1_alg».proof.Proof.Gen.Kernel.Points
import proofs.«166765_j35287451304491_1_alg».proof.Proof.Gen.Kernel.Frame
import proofs.«166765_j35287451304491_1_alg».proof.Proof.Gen.KernelIdeal
import proofs.«166765_j35287451304491_1_alg».proof.Proof.Gen.KernelIdeal.Skeleton
import proofs.«166765_j35287451304491_1_alg».proof.Proof.Gen.KernelIdeal.Launch
import proofs.«166765_j35287451304491_1_alg».proof.Proof.Gen.KernelIdeal.Points
import proofs.«166765_j35287451304491_1_alg».proof.Proof.Gen.KernelIdeal.Frame
import proofs.«166765_j35287451304491_1_alg».proof.Proof.Gen.ReferenceIdeal
import proofs.«166765_j35287451304491_1_alg».proof.Proof.Gen.Pre_finite_inputs
import proofs.«166765_j35287451304491_1_alg».proof.Proof.KernelRun
import proofs.«166765_j35287451304491_1_alg».proof.Proof.KernelResult
import proofs.«166765_j35287451304491_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Result.run (F := Ideal) m ρ)

/-- From memories that agree on the arguments both idealized programs end with the network of those arguments. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩) (Cert.KernelIdeal.Run.run_named m ρ)
  · refine (θ_run Cert.ReferenceIdeal.defs _ _).mono (fun _ h c => ⟨(h c).1.trans ?_, (h c).2⟩)
      (Cert.ReferenceIdeal.Result.run (F := Ideal) m' ρ')
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
